-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x4096x4096 .f32) (main_arg1 : FVec F S4x4096x4096 .f32) (main_arg2 : FVec F S4x4096x4096 .f32) (main_arg3 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4x4096x4096 .f32 := Host.absf main_arg2
  let main_cst_2 : FVec F S_ .f32 := constant S_ .f32 0x7F800000#32
  let main_v10 : FVec F S4x4096x4096 .f32 := broadcastInDim S4x4096x4096 ![] bcast_S_S4x4096x4096 main_cst_2
  let main_v11 : IVec S4x4096x4096 1 := cmpf .olt main_v9 main_v10
  let main_c_3 : IVec S_ 1 := constantI S_ 1 1#1
  let main_v12 : IVec S_ 1 := (fun x v => Host.reduce IntOp.andi x v reducesTo_S4x4096x4096_S_d0_1_2 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x4096x4096 : Shape := ⟨3, ![4, 4096, 4096]⟩
abbrev S4096 : Shape := ⟨1, ![4096]⟩
abbrev S_ : Shape := ⟨0, ![]⟩
abbrev S1x128x4096 : Shape := ⟨3, ![1, 128, 4096]⟩
abbrev S1x1x4096 : Shape := ⟨3, ![1, 1, 4096]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4x4096x4096, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4x4096x4096, .f32⟩
  | .local _ .vmem, ⟨0, _⟩ => ⟨S1x128x4096, .f32⟩
  | .local _ .vmem, ⟨1, _⟩ => ⟨S1x128x4096, .f32⟩
  | .local _ .vmem, ⟨2, _⟩ => ⟨S1x128x4096, .f32⟩
  | .local _ .vmem, ⟨3, _⟩ => ⟨S1x128x4096, .f32⟩
  | .local _ .vmem, ⟨4, _⟩ => ⟨S1x128x4096, .f32⟩
  | .local _ .vmem, ⟨5, _⟩ => ⟨S1x128x4096, .f32⟩
  | .local _ .vmem, ⟨6, _⟩ => ⟨S4096, .f32⟩
  | .local _ .vmem, ⟨7, _⟩ => ⟨S4096, .f32⟩
  | .local _ .vmem, ⟨8, _⟩ => ⟨S1x128x4096, .f32⟩
  | .local _ .vmem, ⟨9, _⟩ => ⟨S1x128x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S4096 : S_.BroadcastsInDim S4096 (![] : Fin 0 → Fin S4096.rank)
  inb_S4096_S4096_0 : ∀ a, (![0] : Fin 1 → Nat) a + S4096.size a ≤ S4096.size a
  h_S4096 : 0 < S4096.numel
  shapeCasts_S4096_S1x1x4096 : S4096.ShapeCasts S1x1x4096
  shapeCasts_S4096_S4096 : S4096.ShapeCasts S4096
  shapeCasts_S1x1x4096_S1x1x4096 : S1x1x4096.ShapeCasts S1x1x4096
  broadcasts_S1x1x4096_S1x128x4096 : S1x1x4096.Broadcasts S1x128x4096
  inb_S1x128x4096_S1x128x4096_0_0_0 : ∀ a, (![0, 0, 0] : Fin 3 → Nat) a + S1x128x4096.size a ≤ S1x128x4096.size a
  h_S1x128x4096 : 0 < S1x128x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S4x4096x4096.size a
  hwx0_0 : ∀ i : grid0.Coords, EltTy.bits .f32 = 32 ∨ (Rect.block (s := S4x4096x4096) S1x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4096.size a ≤ S4x4096x4096.size a
  hwx0_1 : ∀ i : grid0.Coords, EltTy.bits .f32 = 32 ∨ (Rect.block (s := S4x4096x4096) S1x128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S4x4096x4096.size a
  hwx0_2 : ∀ i : grid0.Coords, EltTy.bits .f32 = 32 ∨ (Rect.block (s := S4x4096x4096) S1x128x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x4096.size a ≤ S4x4096x4096.size a
  hwx0_5 : ∀ i : grid0.Coords, EltTy.bits .f32 = 32 ∨ (Rect.block (s := S4x4096x4096) S1x128x4096.size (cc0_transform_5 i) (hinb0_5 i)).WholeWords (EltTy.packing .f32)

variable [Facts₀]

abbrev win0_0 : Pipeline.Window sig grid0 :=
  Pipeline.Window.ofSpec (Memref.whole main_arg0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096 : Shape := ⟨1, ![4096]⟩
abbrev S1x1x4096 : Shape := ⟨3, ![1, 1, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4x4096x4096, .f32⟩
  | .hbm, ⟨3, _⟩ => ⟨S4096, .f32⟩
  | .hbm, ⟨4, _⟩ => ⟨S4x4096x4096, .f32⟩
  | .hbm, ⟨5, _⟩ => ⟨S1x1x4096, .f32⟩
  | .hbm, ⟨6, _⟩ => ⟨S4x4096x4096, .f32⟩
  | .hbm, ⟨7, _⟩ => ⟨S4x4096x4096, .f32⟩
  | .hbm, ⟨8, _⟩ => ⟨S1x1x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S1x1x4096, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S1x1x4096, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S1x1x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S1x1x4096, .f32⟩
  | .hbm, ⟨29, _⟩ => ⟨S4x4096x4096, .f32⟩
  | .hbm, ⟨30, _⟩ => ⟨S4x4096x4096, .f32⟩
  | .hbm, ⟨31, _⟩ => ⟨S1x1x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S4x4096x4096, .f32⟩
  | .hbm, ⟨43, _⟩ => ⟨S1x1x4096, .f32⟩
  | .hbm, ⟨44, _⟩ => ⟨S4x4096x4096, .f32⟩
  | .hbm, ⟨45, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)

variable [Facts₀]

class Facts : Prop extends Facts₀ where

variable [Facts]
-- ==== Proof.SpikeLaw.lean ====
/-
  The per-element law of the integrate-and-fire step on the extended reals.

  One element of the kernel's result is a function of the four numbers x, mem, sc (the accumulated
  spike count) and th (the channel's threshold), and of th's reciprocal, which the kernel is handed
  instead of dividing:
      m     = mem + x
      k⁺    = max (⌈m · th⁻¹⌉ − 1) 0
      m₁    = m − k⁺ · th
      u     = roundeven (sc · th⁻¹ + k⁺)
      j     = max (⌈(0 − m₁) · th⁻¹⌉ − 1) 0
      spike = (k⁺ − min j (max u 0)) · th.
  The reference divides by th where the kernel multiplies by the reciprocal, and subtracts th before
  dividing where the kernel subtracts 1 after the ceiling:
      k⁺ = max ⌈(m − th) / th⌉ 0,   u = roundeven ((sc + k⁺ · th) / th),   j = max ⌈(−m₁ − th) / th⌉ 0.
  For real x, mem, sc and a real th ≠ 0 every intermediate value is real, (a − th)/th = a · th⁻¹ − 1,
  (sc + k · th)/th = sc · th⁻¹ + k, and ⌈a − 1⌉ = ⌈a⌉ − 1, so the two agree.  For th = 0 both results
  are a product with 0, which is 0 on the extended reals whatever the other factor is.
-/
import Idealize.ShloMosaic.PureOps.Ideal
import Idealize.ShloMosaic.PureOps.Ideal.Laws
import Idealize.ShloMosaic.Lib.ValueIdx
import Idealize.ShloMosaic.Lib.IdealHost

noncomputable section

namespace Cert.SpikeLaw

open Idealize.ShloMosaic Idealize.ShloMosaic.ValueIdx

/-- The kernel's element: the threshold's reciprocal `inv` is an argument. -/
def spikeK (x mem sc th inv : EReal) : EReal :=
  (max (Ideal.liftRound Int.ceil ((mem + x) * inv) - 1) 0
    - min (max (Ideal.liftRound Int.ceil
              ((0 - ((mem + x) - max (Ideal.liftRound Int.ceil ((mem + x) * inv) - 1) 0 * th)) * inv) - 1) 0)
          (max (Ideal.liftRound Ideal.roundHalfEven
              (sc * inv + max (Ideal.liftRound Int.ceil ((mem + x) * inv) - 1) 0)) 0)) * th

/-- The reference's element: quotients by the threshold. -/
def spikeR (x mem sc th : EReal) : EReal :=
  (max (Ideal.liftRound Int.ceil (Ideal.div ((mem + x) - th) th)) 0
    - min (max (Ideal.liftRound Int.ceil
              (Ideal.div (-((mem + x) - max (Ideal.liftRound Int.ceil (Ideal.div ((mem + x) - th) th)) 0 * th) - th) th)) 0)
          (max (Ideal.liftRound Ideal.roundHalfEven
              (Ideal.div (sc + max (Ideal.liftRound Int.ceil (Ideal.div ((mem + x) - th) th)) 0 * th) th)) 0)) * th

/-- The maximum of two reals, as an extended real. -/
theorem coe_max (a b : ℝ) : ((max a b : ℝ) : EReal) = max (a : EReal) (b : EReal) :=
  EReal.coe_strictMono.monotone.map_max

/-- The ceiling of `(a − t)/t` is the ceiling of `a · t⁻¹` less one, for real `a` and real `t ≠ 0`. -/
theorem ceil_div_sub (a t : ℝ) (ht : t ≠ 0) :
    Ideal.liftRound Int.ceil (Ideal.div ((a : EReal) - t) t)
      = Ideal.liftRound Int.ceil ((a : EReal) * ((1 / t : ℝ) : EReal)) - 1 := by
  have e : (a - t) * (1 / t) = a * (1 / t) - 1 := by field_simp
  rw [Ideal.div_coe ht, ← EReal.coe_sub, ← EReal.coe_mul, ← EReal.coe_mul, Ideal.liftRound_coe, Ideal.liftRound_coe, e,
    Int.ceil_sub_one, Int.cast_sub, Int.cast_one, EReal.coe_sub, EReal.coe_one]

/-- The number of positive bursts is a real number, and both programs compute the same one. -/
theorem kpos_eq (m t : ℝ) (ht : t ≠ 0) :
    ∃ k : ℝ, max (Ideal.liftRound Int.ceil ((m : EReal) * ((1 / t : ℝ) : EReal)) - 1) 0 = (k : EReal)
      ∧ max (Ideal.liftRound Int.ceil (Ideal.div ((m : EReal) - t) t)) 0 = (k : EReal) := by
  refine ⟨max ((⌈m * (1 / t)⌉ : ℝ) - 1) 0, ?_, ?_⟩
  · rw [← EReal.coe_mul, Ideal.liftRound_coe, coe_max, EReal.coe_sub, EReal.coe_one, EReal.coe_zero]
  · rw [ceil_div_sub m t ht, ← EReal.coe_mul, Ideal.liftRound_coe, coe_max, EReal.coe_sub, EReal.coe_one, EReal.coe_zero]

/-- The kernel's element, handed the reciprocal the host computed, is the reference's element, for real arguments. -/
theorem spike_eq (x mem sc th : ℝ) :
    spikeK x mem sc th (Ideal.div 1 (th : EReal)) = spikeR x mem sc th := by
  by_cases ht : th = 0
  · subst ht
    simp only [spikeK, spikeR, EReal.coe_zero, mul_zero]
  · have hinv : Ideal.div 1 (th : EReal) = ((1 / th : ℝ) : EReal) := by rw [Ideal.div_coe ht, one_mul]
    obtain ⟨k, hkK, hkR⟩ := kpos_eq (mem + x) th ht
    rw [EReal.coe_add] at hkK hkR
    have hu : (sc : EReal) * ((1 / th : ℝ) : EReal) + (k : EReal) = Ideal.div ((sc : EReal) + (k : EReal) * th) th := by
      have e : (sc + k * th) * (1 / th) = sc * (1 / th) + k := by field_simp
      rw [Ideal.div_coe ht, ← EReal.coe_mul, ← EReal.coe_mul, ← EReal.coe_add, ← EReal.coe_add, ← EReal.coe_mul, e]
    have hj : Ideal.liftRound Int.ceil ((0 - (((mem : EReal) + x) - (k : EReal) * th)) * ((1 / th : ℝ) : EReal)) - 1
        = Ideal.liftRound Int.ceil (Ideal.div (-(((mem : EReal) + x) - (k : EReal) * th) - th) th) := by
      rw [zero_sub, ← EReal.coe_add, ← EReal.coe_mul, ← EReal.coe_sub, ← EReal.coe_neg, ceil_div_sub _ _ ht]
    simp only [spikeK, spikeR, hinv, hkK, hkR, hu, hj]

/-! ## The whole arrays

The step acts on a batch of `[4, 4096, 4096]` states with one threshold per channel (the last axis): element
`(b, t, h)` of the result depends on the same element of x, mem and sc and on channel `h` of the threshold. -/

/-- The shape of x, mem, sc and of the result. -/
abbrev Cube : Shape := ⟨3, ![4, 4096, 4096]⟩
/-- The shape of the threshold. -/
abbrev Row : Shape := ⟨1, ![4096]⟩

/-- The channel of an element: its last coordinate, as an index of the threshold. -/
abbrev chan (i : Cube.Idx) : Row.Idx := ix1 (n := 4096) (i 2)

/-- The reference's result array. -/
def spikes (x mem sc : Cube.Idx → EReal) (th : Row.Idx → EReal) : Cube.Idx → EReal :=
  fun i => spikeR (x i) (mem i) (sc i) (th (chan i))

/-- The kernel's result array, of the thresholds and an array `inv` handed to it in place of their reciprocals. -/
def spikesK (x mem sc : Cube.Idx → EReal) (th inv : Row.Idx → EReal) : Cube.Idx → EReal :=
  fun i => spikeK (x i) (mem i) (sc i) (th (chan i)) (inv (chan i))

/-- With the reciprocals computed as the quotients `1 / th`, the kernel's array is the reference's, for real inputs. -/
theorem spikesK_eq (x mem sc : Cube.Idx → EReal) (th : Row.Idx → EReal)
    (hx : ∀ i, ∃ r : ℝ, x i = r) (hm : ∀ i, ∃ r : ℝ, mem i = r) (hs : ∀ i, ∃ r : ℝ, sc i = r)
    (ht : ∀ j, ∃ r : ℝ, th j = r) :
    spikesK x mem sc th (fun j => Ideal.div 1 (th j)) = spikes x mem sc th := by
  funext i
  obtain ⟨a, ha⟩ := hx i
  obtain ⟨b, hb⟩ := hm i
  obtain ⟨s, hs'⟩ := hs i
  obtain ⟨t, ht'⟩ := ht (chan i)
  show spikeK (x i) (mem i) (sc i) (th (chan i)) (Ideal.div 1 (th (chan i))) = spikeR (x i) (mem i) (sc i) (th (chan i))
  rw [ha, hb, hs', ht']
  exact spike_eq a b s t

end Cert.SpikeLaw

end
-- ==== Proof.FiniteInputs.lean ====
/-
  What the precondition says of the inputs.

  The precondition is the conjunction of four tests, one per input array, each `all (|a| < +∞)`.  On the extended
  reals `|a| = max a (−a)` is below `+∞` exactly when `a` is neither infinity, that is, when `a` is a real
  number.  So under the precondition every element of x, mem, sc and of the threshold is real.
-/
import proofs.«155434_j36558761624015_2_alg».proof.Proof.Gen.Pre_finite_inputs
import Idealize.ShloMosaic.Lib.ReduceAll
import Idealize.ShloMosaic.Lib.ValueIdx
import Idealize.ShloMosaic.Lib.IdealHost

noncomputable section

namespace Cert.FiniteInputs

open Idealize.ShloMosaic Idealize.ShloMosaic.ValueIdx Cert.Pre_finite_inputs

/-- The scalar shape has one index. -/
instance : Subsingleton S_.Idx := ⟨fun _ _ => funext fun d => d.elim0⟩

/-- An extended real whose absolute value compares below the pattern of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = r := by
  have htop : Ideal.ofBits .f32 0x7F800000#32 = ⊤ := by simp [Ideal.ofBits, Ideal.ieee]
  have h' : Ideal.cmp .olt (max x (-x)) ⊤ = 1#1 := by rw [← htop]; exact h
  induction x using EReal.rec with
  | bot => simp [Ideal.cmp] at h'
  | coe r => exact ⟨r, rfl⟩
  | top => simp [Ideal.cmp] at h'

/-- One element of an array that passes the test `|a| < +∞` is real. -/
theorem real_of_test {s : Shape} (a : FVec Ideal s .f32) (hb : S_.BroadcastsInDim s ![]) (i : s.Idx)
    (h : cmpf .olt (Host.absf a) (broadcastInDim s ![] hb (constant S_ .f32 0x7F800000#32)) i = 1#1) :
    ∃ r : ℝ, a i = r := by
  rw [cmpf_apply, broadcastInDim_scalar_apply] at h
  exact real_of_abs_lt (a i) h

/-- Under the precondition every element of every input is a real number. -/
theorem real_of_pre (a0 a1 a2 : FVec Ideal S4x4096x4096 .f32) (a3 : FVec Ideal S4096 .f32)
    (h : fn (F := Ideal) a0 a1 a2 a3 = fun _ => 1#1) :
    (∀ i, ∃ r : ℝ, a0 i = r) ∧ (∀ i, ∃ r : ℝ, a1 i = r) ∧ (∀ i, ∃ r : ℝ, a2 i = r) ∧ (∀ j, ∃ r : ℝ, a3 j = r) := by
  have h0 := congrFun h ix0
  dsimp only [fn, fn_part1] at h0
  obtain ⟨h13, h17⟩ := IntOp.andi_eq_one.1 h0
  obtain ⟨h8, h12⟩ := IntOp.andi_eq_one.1 h13
  obtain ⟨h3, h7⟩ := IntOp.andi_eq_one.1 h8
  exact ⟨fun i => real_of_test a0 _ i (Host.reduce_andi_all _ _ _ _ _ h3 i),
    fun i => real_of_test a1 _ i (Host.reduce_andi_all _ _ _ _ _ h7 i),
    fun i => real_of_test a2 _ i (Host.reduce_andi_all _ _ _ _ _ h12 i),
    fun j => real_of_test a3 _ j (Host.reduce_andi_all _ _ _ _ _ h17 j)⟩

end Cert.FiniteInputs

end
-- ==== Proof.RefSpikes.lean ====
/-
  The reference's result, element by element.

  The reference's last operation writes, at element `i = (b, t, h)`, the closed form of the integrate-and-fire step
  (`Cert.SpikeLaw.spikeR`) of x, mem and sc at `i` and of the threshold at channel `h`: every operation is pointwise,
  and each broadcast of the threshold `[4096] → [1, 1, 4096] → [4, 4096, 4096]` reads it at the last coordinate.
-/
import proofs.«155434_j36558761624015_2_alg».proof.Proof.Gen.ReferenceIdeal.Read
import proofs.«155434_j36558761624015_2_alg».proof.Proof.SpikeLaw

noncomputable section

namespace Cert.RefSpikes

open Cert.ReferenceIdeal Cert.ReferenceIdeal.Gen Idealize.ShloMosaic Idealize.ShloMosaic.TcCoe Idealize.ShloMosaic.ValueIdx
open Cert.SpikeLaw

/-! The two broadcasts of the threshold, `[4096] → [1, 1, 4096] → [4, 4096, 4096]`, read it at the element's channel
(one equation per occurrence of the pair in the program). -/
theorem chan_1 (i : S4x4096x4096.Idx) : Read.idx_main_v1 (Read.idx_main_v2 i) = chan i := by
  funext a; match a with | ⟨0, _⟩ => rfl
theorem chan_4 (i : S4x4096x4096.Idx) : Read.idx_main_v4 (Read.idx_main_v5 i) = chan i := by
  funext a; match a with | ⟨0, _⟩ => rfl
theorem chan_10 (i : S4x4096x4096.Idx) : Read.idx_main_v10 (Read.idx_main_v11 i) = chan i := by
  funext a; match a with | ⟨0, _⟩ => rfl
theorem chan_14 (i : S4x4096x4096.Idx) : Read.idx_main_v14 (Read.idx_main_v15 i) = chan i := by
  funext a; match a with | ⟨0, _⟩ => rfl
theorem chan_18 (i : S4x4096x4096.Idx) : Read.idx_main_v18 (Read.idx_main_v19 i) = chan i := by
  funext a; match a with | ⟨0, _⟩ => rfl
theorem chan_23 (i : S4x4096x4096.Idx) : Read.idx_main_v23 (Read.idx_main_v24 i) = chan i := by
  funext a; match a with | ⟨0, _⟩ => rfl
theorem chan_26 (i : S4x4096x4096.Idx) : Read.idx_main_v26 (Read.idx_main_v27 i) = chan i := by
  funext a; match a with | ⟨0, _⟩ => rfl
theorem chan_36 (i : S4x4096x4096.Idx) : Read.idx_main_v36 (Read.idx_main_v37 i) = chan i := by
  funext a; match a with | ⟨0, _⟩ => rfl

/-- The reference's result array is the closed form of the step, element by element. -/
theorem ref_eq (x0 x1 x2 : (⟨S4x4096x4096, .f32⟩ : BufTy).Contents (Elt Ideal)) (x3 : (⟨S4096, .f32⟩ : BufTy).Contents (Elt Ideal)) :
    Read.val_main_v38 (F := Ideal) x0 x1 x2 x3 = spikes x0 x1 x2 x3 := by
  funext i
  simp only [Read.val_main_v0_apply, Read.val_main_v1_apply, Read.val_main_v2_apply, Read.val_main_v3_apply, Read.val_main_v4_apply, Read.val_main_v5_apply, Read.val_main_v6_apply, Read.val_main_v7_apply, Read.val_main_v8_apply, Read.val_main_v9_apply, Read.val_main_v10_apply, Read.val_main_v11_apply, Read.val_main_v12_apply, Read.val_main_v13_apply, Read.val_main_v14_apply, Read.val_main_v15_apply, Read.val_main_v16_apply, Read.val_main_v17_apply, Read.val_main_v18_apply, Read.val_main_v19_apply, Read.val_main_v20_apply, Read.val_main_v21_apply, Read.val_main_v22_apply, Read.val_main_v23_apply, Read.val_main_v24_apply, Read.val_main_v25_apply, Read.val_main_v26_apply, Read.val_main_v27_apply, Read.val_main_v28_apply, Read.val_main_v29_apply, Read.val_main_v30_apply, Read.val_main_v31_apply, Read.val_main_v32_apply, Read.val_main_v33_apply, Read.val_main_v34_apply, Read.val_main_v35_apply, Read.val_main_v36_apply, Read.val_main_v37_apply, Read.val_main_v38_apply, Read.val_main_cst_apply, Read.val_main_cst_0_apply, Read.val_main_cst_1_apply]
  simp only [chan_1, chan_4, chan_10, chan_14, chan_18, chan_23, chan_26, chan_36, Ideal.ofBits_def, Ideal.ofBits_zero_f32, Ideal.addf_def, Ideal.subf_def, Ideal.mulf_def,
    Ideal.hostDivf_def, Ideal.hostUnary_ceil_def, Ideal.hostUnary_roundeven_def, Ideal.hostNegf_def, Ideal.negf_def,
    Ideal.maximumf_def, Ideal.minimumf_def]
  rfl

end Cert.RefSpikes

end
-- ==== Proof.KernelSpikes.lean ====
/-
  The kernel's result array.

  The region runs over a `4 × 32` grid.  At point `(b, s)` the body is handed rows `128·s … 128·s + 127` of
  batch `b` of x, mem and sc, and the whole threshold vector and the whole vector of its reciprocals (computed on
  the host as `1 / th`); it writes the same rows of the result.  Each element it writes is the closed form
  `Cert.SpikeLaw.spikeK` of the elements of x, mem and sc at the same place and of the threshold and its
  reciprocal at the element's channel.  The blocks tile the result, so the whole array is
  `Cert.SpikeLaw.spikesK` of the argument arrays.
-/
import proofs.«155434_j36558761624015_2_alg».proof.Proof.Gen.KernelIdeal.Value
import proofs.«155434_j36558761624015_2_alg».proof.Proof.SpikeLaw
import Idealize.ShloMosaic.Lib.StableHlo.Run
import Idealize.ShloMosaic.Lib.IdealHost

noncomputable section

namespace Cert.KernelSpikes

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.SpikeLaw

/-! ## One element of a block -/

/-- A block has one batch, so its index is determined by the row and the channel. -/
theorem blockIdx_ext (y z : S1x128x4096.Idx) (h1 : (z 1).val = (y 1).val) (h2 : (z 2).val = (y 2).val) : z = y := by
  funext a; apply Fin.ext
  match a with
  | ⟨0, _⟩ =>
    have hz : (z 0).val < 1 := (z 0).isLt
    have hy : (y 0).val < 1 := (y 0).isLt
    show (z 0).val = (y 0).val
    omega
  | ⟨1, _⟩ => exact h1
  | ⟨2, _⟩ => exact h2

/-- The block the body leaves, at one element: the closed form of the step of the loaded blocks' elements at the
    same place and of the two loaded vectors at the element's channel. -/
theorem block_elem (P0 P1 P4 : Vec Ideal S1x128x4096 .f32) (P2 P3 : Vec Ideal S4096 .f32) (y : S1x128x4096.Idx) :
    Value.E5 (F := Ideal) P0 P1 P2 P3 P4 y
      = spikeK (P1 y) (P0 y) (P4 y) (P3 (ix1 (n := 4096) (y 2))) (P2 (ix1 (n := 4096) (y 2))) := by
  have e0 : Value.ix5_0 y = y := blockIdx_ext _ _ rfl rfl
  have e1 : Value.ix5_1 y = y := blockIdx_ext _ _ rfl rfl
  have e3 : Value.ix5_3 y = y := blockIdx_ext _ _ rfl rfl
  have e4 : Value.ix5_4 y = y := blockIdx_ext _ _ rfl rfl
  have e5 : Value.ix5_5 y = y := blockIdx_ext _ _ rfl rfl
  have e6 : Value.ix5_6 y = y := blockIdx_ext _ _ rfl rfl
  have e10 : Value.ix5_10 y = y := blockIdx_ext _ _ rfl rfl
  have e12 : Value.ix5_12 y = y := blockIdx_ext _ _ rfl rfl
  have e13 : Value.ix5_13 y = y := blockIdx_ext _ _ rfl rfl
  have c2 : Value.ix5_2 y = ix1 (n := 4096) (y 2) := by funext a; match a with | ⟨0, _⟩ => rfl
  have c7 : Value.ix5_7 y = ix1 (n := 4096) (y 2) := by funext a; match a with | ⟨0, _⟩ => rfl
  have c8 : Value.ix5_8 y = ix1 (n := 4096) (y 2) := by funext a; match a with | ⟨0, _⟩ => rfl
  have c9 : Value.ix5_9 y = ix1 (n := 4096) (y 2) := by funext a; match a with | ⟨0, _⟩ => rfl
  have c11 : Value.ix5_11 y = ix1 (n := 4096) (y 2) := by funext a; match a with | ⟨0, _⟩ => rfl
  have c14 : Value.ix5_14 y = ix1 (n := 4096) (y 2) := by funext a; match a with | ⟨0, _⟩ => rfl
  have c15 : Value.ix5_15 y = ix1 (n := 4096) (y 2) := by funext a; match a with | ⟨0, _⟩ => rfl
  have hs : ∀ b : BitVec 32, Scalar.ofBits (F := Ideal) .f32 b = Ideal.ofBits .f32 b := fun _ => rfl
  simp only [Value.E5, e0, e1, e3, e4, e5, e6, e10, e12, e13, c2, c7, c8, c9, c11, c14, c15, hs, Ideal.ofBits_zero_f32, Ideal.ofBits_one_f32,
    Ideal.addf_def, Ideal.subf_def, Ideal.mulf_def, Ideal.ceil_def, Ideal.roundeven_def, Ideal.maximumf_def, Ideal.minimumf_def]
  rfl

theorem hz3 : (![0, 0, 0] : Fin 3 → Nat) = fun _ => 0 := funext fun a => by fin_cases a <;> rfl
theorem hz1 : (![0] : Fin 1 → Nat) = fun _ => 0 := funext fun a => by fin_cases a <;> rfl

/-- What the body leaves in the output block, at one element, of the five input blocks. -/
theorem out_elem (x0 x1 x2 : Vec Ideal S1x128x4096 .f32) (x3 x4 : Vec Ideal S4096 .f32) (y : S1x128x4096.Idx) :
    out0_5 (F := Ideal) x0 x1 x2 x3 x4 y
      = spikeK (x0 y) (x1 y) (x2 y) (x3 (ix1 (n := 4096) (y 2))) (x4 (ix1 (n := 4096) (y 2))) := by
  have l0 : View.ld x0 r0_1 = x0 := View.ld_unit_zero hz3 _ x0
  have l1 : View.ld x1 r0_1 = x1 := View.ld_unit_zero hz3 _ x1
  have l2 : View.ld x2 r0_1 = x2 := View.ld_unit_zero hz3 _ x2
  have l3 : View.ld x3 r0_0 = x3 := View.ld_unit_zero hz1 _ x3
  have l4 : View.ld x4 r0_0 = x4 := View.ld_unit_zero hz1 _ x4
  unfold out0_5
  rw [Value.canon5_eq, block_elem, l0, l1, l2, l3, l4]

end Cert.KernelSpikes

end
-- ==== Proof.KernelArray.lean ====
/-
  From the blocks to the kernel's whole result array.

  Grid point `t` has coordinates `(b, s)`; the windows of x, mem, sc and of the result all sit at block index
  `(b, s, 0)` with blocks of `1 × 128 × 4096`, and the two vectors' windows at block index `0`.  So element
  `(0, r, h)` of the block point `t` writes back is element `(b, 128·s + r, h)` of the array
  `Cert.SpikeLaw.spikesK` of the arguments, with the reciprocals the host computed as `1 / th`.  Every element of
  the result lies in the block of the point `(b, row / 128)`, so after the run the result is that array.
-/
import proofs.«155434_j36558761624015_2_alg».proof.Proof.KernelSpikes

noncomputable section

namespace Cert.KernelSpikes

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.SpikeLaw

variable (m : (ℓ : Loc nD τ sig) → Buf (Elt Ideal) ℓ) (ρ : Dev nD → PrngReg)

/-- The kernel's result array, of the memory the program is launched from. -/
def result (c : Dev nD) : S4x4096x4096.Idx → EReal :=
  spikesK (m ((c : Thread nD τ).loc main_arg0)) (m ((c : Thread nD τ).loc main_arg1)) (m ((c : Thread nD τ).loc main_arg2))
    (m ((c : Thread nD τ).loc main_arg3)) (fun j => Ideal.div 1 (m ((c : Thread nD τ).loc main_arg3) j))

/-- The vector of reciprocals the region finds: the host's quotient of the constant one by the threshold. -/
theorem recip_eq (c : Dev nD) :
    (V m c main_v1 : S4096.Idx → EReal) = fun j => Ideal.div 1 (m ((c : Thread nD τ).loc main_arg3) j) := by
  have e : (V m c main_v1 : S4096.Idx → EReal)
      = Host.divf (F := Ideal) (broadcastInDim S4096 ![] Facts₀.bcast_S_S4096 (constant (F := Ideal) S_ .f32 0x3F800000#32))
          (m ((c : Thread nD τ).loc main_arg3)) := by
    dsimp only [V, hostOps0]; after_results
  rw [e]
  funext j
  rw [hostDivf_apply, broadcastInDim_scalar_apply]
  show Ideal.div (Ideal.ofBits .f32 0x3F800000#32) _ = _
  rw [Ideal.ofBits_one_f32]

/-- The printed index maps over the grid: the result's window has last block index zero, and the two vectors' windows
    stay at block zero.  (The windows of x, mem and sc have the result's index map itself.) -/
theorem idx_facts : ∀ t : Fin cfg0.N,
    win0_5.index t (2 : Fin 3) = 0 ∧ win0_3.index t (0 : Fin 1) = 0 ∧ win0_4.index t (0 : Fin 1) = 0 :=
  (by decide +kernel : ∀ t : Fin grid0.N, _)

/-- Every pair (batch, block of rows) is some grid point's block index. -/
theorem idx_onto : ∀ (q0 : Fin 4) (q1 : Fin 32), ∃ t : Fin cfg0.N, win0_5.index t = ![q0.val, q1.val, 0] :=
  (by decide +kernel : ∀ (q0 : Fin 4) (q1 : Fin 32), ∃ t : Fin grid0.N, win0_5.index t = ![q0.val, q1.val, 0])

/-- What grid point `t` writes back is block `t` of the result array. -/
theorem flushed_eq (c : Dev nD) (t : Fin cfg0.N) :
    (dats m 0 c).flushed 5 t = ((cfg0.win 5).blk t).view.read (Elt Ideal) (result m c) := by
  rw [Value.flushed5]
  funext j
  show out0_5 (iblk m c 0 t) (iblk m c 1 t) (iblk m c 2 t) (iblk m c 3 t) (iblk m c 4 t) j
    = result m c (((cfg0.win 5).blk t).view.emb j)
  refine (out_elem (iblk m c 0 t) (iblk m c 1 t) (iblk m c 2 t) (iblk m c 3 t) (iblk m c 4 t) j).trans ?_
  obtain ⟨f5, f3, f4⟩ := idx_facts t
  have h0 : iblk m c 0 t j = m ((c : Thread nD τ).loc main_arg0) (((cfg0.win 5).blk t).view.emb j) := by
    show V m c main_arg0 (((cfg0.win 0).blk t).view.emb j) = _
    rw [V_main_arg0]
    rfl
  have h1 : iblk m c 1 t j = m ((c : Thread nD τ).loc main_arg1) (((cfg0.win 5).blk t).view.emb j) := by
    show V m c main_arg1 (((cfg0.win 1).blk t).view.emb j) = _
    rw [V_main_arg1]
    rfl
  have h2 : iblk m c 2 t j = m ((c : Thread nD τ).loc main_arg2) (((cfg0.win 5).blk t).view.emb j) := by
    show V m c main_arg2 (((cfg0.win 2).blk t).view.emb j) = _
    rw [V_main_arg2]
    rfl
  have hc : ((cfg0.win 3).blk t).view.emb (ix1 (n := 4096) (j 2)) = chan (((cfg0.win 5).blk t).view.emb j) := by
    funext a; apply Fin.ext
    match a with
    | ⟨0, _⟩ => show win0_3.index t (0 : Fin 1) * 4096 + 1 * (j 2).val = win0_5.index t (2 : Fin 3) * 4096 + 1 * (j 2).val; rw [f3, f5]
  have hc' : ((cfg0.win 4).blk t).view.emb (ix1 (n := 4096) (j 2)) = chan (((cfg0.win 5).blk t).view.emb j) := by
    funext a; apply Fin.ext
    match a with
    | ⟨0, _⟩ => show win0_4.index t (0 : Fin 1) * 4096 + 1 * (j 2).val = win0_5.index t (2 : Fin 3) * 4096 + 1 * (j 2).val; rw [f4, f5]
  have h3 : iblk m c 3 t (ix1 (n := 4096) (j 2))
      = m ((c : Thread nD τ).loc main_arg3) (chan (((cfg0.win 5).blk t).view.emb j)) := by
    show V m c main_arg3 (((cfg0.win 3).blk t).view.emb (ix1 (n := 4096) (j 2))) = _
    rw [V_main_arg3, hc]
  have h4 : iblk m c 4 t (ix1 (n := 4096) (j 2))
      = Ideal.div 1 (m ((c : Thread nD τ).loc main_arg3) (chan (((cfg0.win 5).blk t).view.emb j))) := by
    show (V m c main_v1 : S4096.Idx → EReal) (((cfg0.win 4).blk t).view.emb (ix1 (n := 4096) (j 2))) = _
    rw [recip_eq, hc']
  rw [h0, h1, h2, h3, h4]
  rfl

/-- An element of the result is in point `t`'s block iff each coordinate is in the block's range on its axis. -/
theorem mem_blk (t : Fin cfg0.N) (i : S4x4096x4096.Idx) :
    i ∈ ((cfg0.win 5).blk t).view.set ↔ ∀ a : Fin 3, win0_5.index t a * S1x128x4096.size a ≤ (i a).val
      ∧ (i a).val < win0_5.index t a * S1x128x4096.size a + S1x128x4096.size a := by
  show i ∈ ((View.whole main_v2).slice (win0_5.rect t)).set ↔ _
  rw [View.set_slice_whole, Rect.mem_set_unit]
  exact Iff.rfl

/-- Every element of the result is in the block of the point at its batch and its block of 128 rows. -/
theorem covered (i : S4x4096x4096.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 128, by omega⟩
  have q0 : win0_5.index t (0 : Fin 3) = (i 0).val := congrFun ht 0
  have q1 : win0_5.index t (1 : Fin 3) = (i 1).val / 128 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 128 ≤ (i 1).val ∧ (i 1).val < win0_5.index t (1 : Fin 3) * 128 + 128; omega
  | ⟨2, _⟩ => show win0_5.index t (2 : Fin 3) * 4096 ≤ (i 2).val ∧ (i 2).val < win0_5.index t (2 : Fin 3) * 4096 + 4096; omega

/-- After the run the result's array is `result`. -/
theorem final (c : Dev nD) : (dats m 0 c).arrAt 5 cfg0.N = result m c :=
  (dats m 0 c).arrAt_eq_of_cover 5 (result m c) (fun t _ => flushed_eq m c t) covered

/-- The kernel's run: every weakly fair execution terminates with the result at `result` and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelSpikes

end
-- ==== Proof.lean ====
/-
  One integrate-and-fire step with bursts, in closed form: the kernel against its reference, on the extended reals.

  Per element, with m = mem + x and th the channel's threshold, the reference computes
      k⁺ = max ⌈(m − th)/th⌉ 0,  m₁ = m − k⁺·th,  u = roundeven ((sc + k⁺·th)/th),  j = max ⌈(−m₁ − th)/th⌉ 0,
      spike = (k⁺ − min j (max u 0)) · th,
  and the kernel computes the same with every quotient `a / th` replaced by the product `a · (1/th)` (the
  reciprocal is computed once per channel before the region) and with `⌈(a − th)/th⌉` replaced by `⌈a·(1/th)⌉ − 1`.
  Under the precondition every input is a real number.  Where th ≠ 0 all intermediate values are real and the two
  agree by (a − th)/th = a/th − 1, (sc + k·th)/th = sc/th + k and ⌈a − 1⌉ = ⌈a⌉ − 1; where th = 0 both results are a
  product with 0, which is 0 (SpikeLaw).  The reference's run is read element by element off its operations
  (RefSpikes); the kernel's blocks — 128 rows of one batch per grid point — are read off the body's one store and
  tile the result (KernelSpikes, KernelArray); FiniteInputs reads the precondition.  No float operation of the kernel
  is rewritten by the idealization, so the `preserves` claim is empty.
-/
import proofs.«155434_j36558761624015_2_alg».proof.Defs
import proofs.«155434_j36558761624015_2_alg».proof.Proof.Gen.Kernel
import proofs.«155434_j36558761624015_2_alg».proof.Proof.Gen.Kernel.Skeleton
import proofs.«155434_j36558761624015_2_alg».proof.Proof.Gen.Kernel.Launch
import proofs.«155434_j36558761624015_2_alg».proof.Proof.Gen.Kernel.Points
import proofs.«155434_j36558761624015_2_alg».proof.Proof.Gen.Kernel.Frame
import proofs.«155434_j36558761624015_2_alg».proof.Proof.Gen.KernelIdeal
import proofs.«155434_j36558761624015_2_alg».proof.Proof.Gen.KernelIdeal.Skeleton
import proofs.«155434_j36558761624015_2_alg».proof.Proof.Gen.KernelIdeal.Launch
import proofs.«155434_j36558761624015_2_alg».proof.Proof.Gen.KernelIdeal.Points
import proofs.«155434_j36558761624015_2_alg».proof.Proof.Gen.KernelIdeal.Frame
import proofs.«155434_j36558761624015_2_alg».proof.Proof.Gen.ReferenceIdeal
import proofs.«155434_j36558761624015_2_alg».proof.Proof.Gen.KernelIdeal.Value
import proofs.«155434_j36558761624015_2_alg».proof.Proof.Gen.ReferenceIdeal.Run
import proofs.«155434_j36558761624015_2_alg».proof.Proof.Gen.ReferenceIdeal.Read
import proofs.«155434_j36558761624015_2_alg».proof.Proof.Gen.Pre_finite_inputs
import proofs.«155434_j36558761624015_2_alg».proof.Proof.SpikeLaw
import proofs.«155434_j36558761624015_2_alg».proof.Proof.FiniteInputs
import proofs.«155434_j36558761624015_2_alg».proof.Proof.RefSpikes
import proofs.«155434_j36558761624015_2_alg».proof.Proof.KernelSpikes
import proofs.«155434_j36558761624015_2_alg».proof.Proof.KernelArray
import Idealize.ShloMosaic.Adequacy
import Idealize.ShloMosaic.Init

noncomputable section

namespace Cert.Proof

open Idealize.ShloMosaic Idealize.SL.Sem Cert.Kernel

/-- The kernel as printed terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same array of spikes: the kernel's is the
    closed form with reciprocals, the reference's the closed form with quotients, and for real inputs these are one
    array. -/
theorem algebraic : Cert.algebraic_KernelIdeal_ReferenceIdeal := by
  intro m ρ m' ρ' hpre hagree
  refine ⟨fun c => Cert.KernelSpikes.result m c, Cert.KernelSpikes.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.RefSpikes.ref_eq, (hagree c).1, (hagree c).2.1, (hagree c).2.2.1,
    (hagree c).2.2.2]
  obtain ⟨hx, hm, hs, ht⟩ := Cert.FiniteInputs.real_of_pre _ _ _ _ (hpre c)
  exact (Cert.SpikeLaw.spikesK_eq _ _ _ _ hx hm hs ht).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
